-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) (main_arg2 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .i32⟩
  | .hbm, ⟨3, _⟩ => ⟨S4096x1, .i32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S4096x1 : S4096.ShapeCasts S4096x1
  iota_S512x2048_d1_w32 : S512x2048.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S2048 : Shape := ⟨1, ![2048]⟩
abbrev S1x2048 : Shape := ⟨2, ![1, 2048]⟩
abbrev S4096x1 : Shape := ⟨2, ![4096, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .i32⟩
  | .hbm, ⟨3, _⟩ => ⟨S2048, .i32⟩
  | .hbm, ⟨4, _⟩ => ⟨S1x2048, .i32⟩
  | .hbm, ⟨5, _⟩ => ⟨S4096x1, .i32⟩
  | .hbm, ⟨6, _⟩ => ⟨S4096x2048, .i32⟩
  | .hbm, ⟨7, _⟩ => ⟨S4096x2048, .i32⟩
  | .hbm, ⟨8, _⟩ => ⟨S4096x2048, .i1⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S4096_S4096x1_0 : S4096.BroadcastsInDim S4096x1 (![0] : Fin 1 → Fin S4096x1.rank)
  bcast_S1x2048_S4096x2048_0_1 : S1x2048.BroadcastsInDim S4096x2048 (![0, 1] : Fin 2 → Fin S4096x2048.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  reducesTo_S4096x2048_S4096_d1 : S4096x2048.ReducesTo [1] S4096
  h_S_ : 0 < S_.numel
  reducesTo_S4096_S_d0 : S4096.ReducesTo [0] S_

variable [Facts₀]

class Facts : Prop extends Facts₀ where

variable [Facts]
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.MaskedLoss.lean ====
/-
  The loss both programs compute, on the extended reals. A row r of the two [4096, 2048] arrays P and A has a length
  word L r. Position k of the row contributes d * d, where d = P(r, k) - log A(r, k) when k, read as a signed 32-bit
  word, is below L r, and d = 0 otherwise. The row's value is the sum of its 2048 contributions divided by L r read
  as a signed integer; the loss is the sum of the 4096 row values divided by 4096.
  Beside the definitions: a sum over the indices of a column [n, 1], and over those of a vector [n], is the sum over
  the n rows. Nothing here depends on a program.
-/
import Idealize.ShloMosaic.PureOps.Ideal
import Idealize.ShloMosaic.PureOps.Ideal.Laws
import Idealize.ShloMosaic.Lib.ValueIdx

noncomputable section

namespace Cert.MaskedLoss

open Idealize.ShloMosaic Idealize.ShloMosaic.ValueIdx

/-- The masked difference at position k of a row with length word len. -/
def diff (x a : EReal) (len : BitVec 32) (k : Fin 2048) : EReal :=
  Scalar.select (IntOp.cmpi .slt (BitVec.ofNat 32 k.val) len) (x - Ideal.log a) (Ideal.ofBits .f32 0x00000000#32)

/-- The sum of a row's squared masked differences. -/
def rowSq (P A : (⟨2, ![4096, 2048]⟩ : Shape).Idx → EReal) (L : Fin 4096 → BitVec 32) (r : Fin 4096) : EReal :=
  ∑ k : Fin 2048, diff (P (ix2 r k)) (A (ix2 r k)) (L r) k * diff (P (ix2 r k)) (A (ix2 r k)) (L r) k

/-- A row's value: that sum divided by the row's length. -/
def rowMse (P A : (⟨2, ![4096, 2048]⟩ : Shape).Idx → EReal) (L : Fin 4096 → BitVec 32) (r : Fin 4096) : EReal :=
  Ideal.div (rowSq P A L r) (((L r).toInt : ℝ) : EReal)

/-- The loss: the mean of the row values. -/
def loss (P A : (⟨2, ![4096, 2048]⟩ : Shape).Idx → EReal) (L : Fin 4096 → BitVec 32) : EReal :=
  Ideal.div (∑ r : Fin 4096, rowMse P A L r) (Ideal.ofBits .f32 0x45800000#32)

/-- A sum over the indices of a column [n, 1] is the sum over its rows. -/
theorem sum_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

/-- The indices of a vector [n] are its n positions. -/
def idxEquiv1 {n : ℕ} : (⟨1, ![n]⟩ : Shape).Idx ≃ Fin n where
  toFun i := i 0
  invFun r := ix1 r
  left_inv i := (eq_ix1 i).symm
  right_inv _ := rfl

/-- A sum over the indices of a vector [n] is the sum over its positions. -/
theorem sum_vec {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

end Cert.MaskedLoss

end
-- ==== Proof.KernelRow.lean ====
/-
  The kernel body's one stored value, entry by entry, at the ideal values. The body loads a block of 512 rows of P and
  A and the 512 length words of those rows as a column, and stores a column: entry (p, 0) is the sum over the 2048
  positions of row p of the squared masked difference, divided by the row's length. The lane sum over axis 1 is the
  sum over the row; its cast to a column and the broadcast of the length column along the row are read at an index.
-/
import proofs.«123200_j55439437857546_2_alg».proof.Proof.Gen.KernelIdeal.Skeleton
import proofs.«123200_j55439437857546_2_alg».proof.Proof.LibKeepdims
import proofs.«123200_j55439437857546_2_alg».proof.Proof.MaskedLoss
import Idealize.ShloMosaic.Lib.Pipeline.Value
import Idealize.ShloMosaic.Lib.ValueIdx
import Idealize.ShloMosaic.PureOps.Ideal.Laws

noncomputable section

namespace Cert.KernelIdeal.Row

open Idealize.ShloMosaic Idealize.ShloMosaic.ValueIdx Cert.KernelIdeal Cert.KernelIdeal.Gen Cert.MaskedLoss Cert.Lib.Keepdims

/-- The masked difference the body forms at (p, k) of its block: the comparison of the lane index with the row's
    length, broadcast along the row, selects between the difference and zero. -/
theorem masked_apply (v1 : Vec Ideal S512x1 .i32) (v5 v6 : Vec Ideal S512x2048 .f32) (p : Fin 512) (k : Fin 2048) :
    select (cmpi .slt (iota .tc S512x2048 32 [1] iota_S512x2048_d1_w32)
        (broadcastTo S512x2048 (shapeCast S512x1 v1 shapeCasts_S512x1_S512x1) broadcasts_S512x1_S512x2048))
      (subf v5 (log v6)) (broadcast S512x2048 (Scalar.ofBits (F := Ideal) .f32 0x00000000#32)) (ix2 p k)
      = diff (v5 (ix2 p k)) (v6 (ix2 p k)) (v1 (ix2 p (0 : Fin 1))) k := by
  rw [select_apply]
  unfold diff
  have hc : cmpi .slt (iota .tc S512x2048 32 [1] iota_S512x2048_d1_w32)
        (broadcastTo S512x2048 (shapeCast S512x1 v1 shapeCasts_S512x1_S512x1) broadcasts_S512x1_S512x2048) (ix2 p k)
      = IntOp.cmpi .slt (BitVec.ofNat 32 k.val) (v1 (ix2 p (0 : Fin 1))) := by
    show IntOp.cmpi .slt (iota .tc S512x2048 32 [1] iota_S512x2048_d1_w32 (ix2 p k))
        (broadcastTo S512x2048 (shapeCast S512x1 v1 shapeCasts_S512x1_S512x1) broadcasts_S512x1_S512x2048 (ix2 p k)) = _
    rw [iota_single_apply, broadcastTo_a1_ab_apply, shapeCast_self]
  rw [hc]
  rfl

/-- The stored column at (p, 0): the row's sum of squared masked differences over the row's length. -/
theorem pay_apply (v1 : Vec Ideal S512x1 .i32) (v5 v6 : Vec Ideal S512x2048 .f32) (p : Fin 512) (u : Fin 1) :
    k0_pay1 (F := Ideal) v1 v5 v6 (ix2 p u)
      = Ideal.div (∑ k : Fin 2048, diff (v5 (ix2 p k)) (v6 (ix2 p k)) (v1 (ix2 p (0 : Fin 1))) k
                                    * diff (v5 (ix2 p k)) (v6 (ix2 p k)) (v1 (ix2 p (0 : Fin 1))) k)
          (((v1 (ix2 p (0 : Fin 1))).toInt : ℝ) : EReal) := by
  unfold k0_pay1
  have hu : u = 0 := Subsingleton.elim _ _
  subst hu
  rw [divf_apply]
  refine congrArg₂ Ideal.div ?_ ?_
  · refine (shapeCast_a_a1_apply _ shapeCasts_S512_S512x1 p 0).trans ?_
    refine (rowSum_apply _ _ reduces_S512x2048_S512 _ _ p).trans ?_
    refine Finset.sum_congr rfl fun k _ => ?_
    rw [mulf_apply, masked_apply]
  · rw [sitofp_apply, shapeCast_self]
    rfl

end Cert.KernelIdeal.Row

end
-- ==== Proof.KernelArray.lean ====
/-
  The column the kernel leaves in its output array. Grid point t handles rows 512 t … 512 t + 511: its three input
  blocks are those rows of P, of A and of the length column, and what it writes back is those rows of one column,
  whose entry (r, 0) is row r's value. The eight blocks tile the 4096 rows, so after the run the output array is
  that column. The length column the region finds is the length vector recast to [4096, 1].
-/
import proofs.«123200_j55439437857546_2_alg».proof.Proof.Gen.KernelIdeal.Frame
import proofs.«123200_j55439437857546_2_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Row Cert.MaskedLoss Cert.Lib.Keepdims

variable (m : (ℓ : Loc nD τ sig) → Buf (Elt Ideal) ℓ) (ρ : Dev nD → PrngReg)

theorem hz : (![0, 0] : Fin 2 → Nat) = fun _ => 0 := funext fun a => by fin_cases a <;> rfl

/-- The block indices of the four windows at a grid point: all on the same block of rows, block 0 along the other
    axis, and the row block is one of the eight. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 7 :=
  (by decide +kernel : ∀ t : Fin grid0.N, _)

/-- Every block of rows is some point's. -/
theorem idx_onto : ∀ q : Fin 8, ∃ t : Fin cfg0.N, win0_3.index t = ![q.val, 0] :=
  (by decide +kernel : ∀ q : Fin 8, ∃ t : Fin grid0.N, win0_3.index t = ![q.val, 0])

/-- The block of P at point t, at (p, k), is P at (r, k) for the row r = 512 · (block) + p. -/
theorem iblk0_apply (c : Dev nD) (t : Fin cfg0.N) (p : Fin 512) (k : Fin 2048) (r : Fin 4096)
    (hr : r.val = win0_3.index t (0 : Fin 2) * 512 + p.val) :
    (iblk m c 0 t : Vec Ideal S512x2048 .f32) (ix2 p k) = (V m c main_arg0 : S4096x2048.Idx → EReal) (ix2 r k) := by
  obtain ⟨e0, e1, e2, e3, e4, e5, e6, e7⟩ := idx_facts t
  unfold iblk
  rw [View.read_apply]
  show V m c main_arg0 _ = V m c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The block of A likewise. -/
theorem iblk1_apply (c : Dev nD) (t : Fin cfg0.N) (p : Fin 512) (k : Fin 2048) (r : Fin 4096)
    (hr : r.val = win0_3.index t (0 : Fin 2) * 512 + p.val) :
    (iblk m c 1 t : Vec Ideal S512x2048 .f32) (ix2 p k) = (V m c main_arg1 : S4096x2048.Idx → EReal) (ix2 r k) := by
  obtain ⟨e0, e1, e2, e3, e4, e5, e6, e7⟩ := idx_facts t
  unfold iblk
  rw [View.read_apply]
  show V m c main_arg1 _ = V m c main_arg1 _
  congr 1
  funext a
  apply Fin.ext
  match a with
  | ⟨0, _⟩ => show win0_1.index t (0 : Fin 2) * 512 + 1 * p.val = r.val; rw [e2, hr]; omega
  | ⟨1, _⟩ => show win0_1.index t (1 : Fin 2) * 2048 + 1 * k.val = k.val; rw [e3]; omega

/-- The block of the length column at (p, 0) is the column at (r, 0). -/
theorem iblk2_apply (c : Dev nD) (t : Fin cfg0.N) (p : Fin 512) (r : Fin 4096)
    (hr : r.val = win0_3.index t (0 : Fin 2) * 512 + p.val) :
    (iblk m c 2 t : Vec Ideal S512x1 .i32) (ix2 p (0 : Fin 1)) = (V m c main_v0 : S4096x1.Idx → BitVec 32) (ix2 r (0 : Fin 1)) := by
  obtain ⟨e0, e1, e2, e3, e4, e5, e6, e7⟩ := idx_facts t
  unfold iblk
  rw [View.read_apply]
  show V m c main_v0 _ = V m c main_v0 _
  congr 1
  funext a
  apply Fin.ext
  match a with
  | ⟨0, _⟩ => show win0_2.index t (0 : Fin 2) * 512 + 1 * p.val = r.val; rw [e4, hr]; omega
  | ⟨1, _⟩ => show win0_2.index t (1 : Fin 2) * 1 + 1 * 0 = 0; rw [e5]

/-- The column of row values, of the arrays as the region finds them. -/
abbrev col (c : Dev nD) : S4096x1.Idx → EReal := fun i =>
  rowMse (V m c main_arg0) (V m c main_arg1) (fun r => (V m c main_v0 : S4096x1.Idx → BitVec 32) (ix2 r (0 : Fin 1))) ⟨(i 0).val, idx2_lt0 i⟩

/-- What point t stores at row p of its block is the value of row 512 · (block) + p. -/
theorem block_row (c : Dev nD) (t : Fin cfg0.N) (p : Fin 512) (r : Fin 4096)
    (hr : r.val = win0_3.index t (0 : Fin 2) * 512 + p.val) :
    k0_pay1 (F := Ideal) (iblk m c 2 t) (iblk m c 0 t) (iblk m c 1 t) (ix2 p (0 : Fin 1))
      = rowMse (V m c main_arg0) (V m c main_arg1) (fun r => (V m c main_v0 : S4096x1.Idx → BitVec 32) (ix2 r (0 : Fin 1))) r := by
  refine (pay_apply (iblk m c 2 t) (iblk m c 0 t) (iblk m c 1 t) p 0).trans ?_
  unfold rowMse rowSq
  rw [iblk2_apply m c t p r hr]
  refine congrArg₂ Ideal.div (Finset.sum_congr rfl fun k _ => ?_) rfl
  rw [iblk0_apply m c t p k r hr, iblk1_apply m c t p k r hr]

/-- What point t writes back is block t of the column. -/
theorem flushed_eq (c : Dev nD) (t : Fin cfg0.N) :
    (dats m 0 c).flushed 3 t = ((cfg0.win 3).blk t).view.read (Elt Ideal) (col m c) := by
  show (cfg0.win 3).cut (grid0.coords t) ((dats m 0 c).after 3 t) = _
  rw [after0_3]
  unfold out0_3
  rw [View.canon_unit_zero hz]
  simp only [View.ld_unit_zero (S := S512x1) hz, View.ld_unit_zero (S := S512x2048) hz]
  funext j
  obtain ⟨p, u, rfl⟩ : ∃ (p : Fin 512) (u : Fin 1), j = ix2 p u := ⟨j 0, j 1, eq_ix2 j⟩
  obtain rfl : u = 0 := Subsingleton.elim _ _
  show k0_pay1 (F := Ideal) (iblk m c 2 t) (iblk m c 0 t) (iblk m c 1 t) (ix2 p (0 : Fin 1)) = col m c (((cfg0.win 3).blk t).view.emb (ix2 p (0 : Fin 1)))
  refine (block_row m c t p ⟨win0_3.index t (0 : Fin 2) * 512 + p.val, by have := (idx_facts t).2.2.2.2.2.2.2; have := p.isLt; omega⟩ rfl).trans ?_
  unfold col
  congr 1
  apply Fin.ext
  show win0_3.index t (0 : Fin 2) * 512 + p.val = win0_3.index t (0 : Fin 2) * 512 + 1 * p.val
  omega

/-- An index of the output array is in point t's block iff its coordinates are in the block's ranges. -/
theorem mem_blk (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v1).slice (win0_3.rect t)).set ↔ _
  rw [View.set_slice_whole, Rect.mem_set_unit]
  exact Iff.rfl

/-- Every row is in the block of the point handling its block of 512 rows. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- After the run the output array is the column of row values. -/
theorem final (c : Dev nD) : (dats m 0 c).arrAt 3 cfg0.N = col m c :=
  (dats m 0 c).arrAt_eq_of_cover 3 (col m c) (fun t _ => flushed_eq m c t) cover

/-- The length column the region finds: the length vector recast to a column. -/
theorem V_len (c : Dev nD) : (V m c main_v0 : S4096x1.Idx → BitVec 32)
    = shapeCast S4096x1 (m ((c : Thread nD τ).loc main_arg2) : S4096.Idx → BitVec 32) shapeCasts_S4096_S4096x1 := by
  show StableHlo.after hostOps0 (fun b => m (c, b)) (Proc.devRef .tc main_v0) = _
  after_results
  rfl

/-- So its entry (r, 0) is the length of row r. -/
theorem V_len_apply (c : Dev nD) (r : Fin 4096) :
    (V m c main_v0 : S4096x1.Idx → BitVec 32) (ix2 r (0 : Fin 1)) = (m ((c : Thread nD τ).loc main_arg2) : S4096.Idx → BitVec 32) (ix1 r) := by
  rw [V_len]
  exact shapeCast_a_a1_apply _ shapeCasts_S4096_S4096x1 r 0

/-- The column in terms of the arrays as launched. -/
theorem col_eq (c : Dev nD) : col m c = fun i =>
    rowMse (m ((c : Thread nD τ).loc main_arg0)) (m ((c : Thread nD τ).loc main_arg1))
      (fun r => (m ((c : Thread nD τ).loc main_arg2) : S4096.Idx → BitVec 32) (ix1 r)) ⟨(i 0).val, idx2_lt0 i⟩ := by
  unfold col
  rw [V_main_arg0, V_main_arg1]
  funext i
  congr 1
  funext r
  exact V_len_apply m c r

end Cert.KernelIdeal.Arr

end
-- ==== Proof.KernelRun.lean ====
/-
  The kernel program's result. After the region the host sums the output column over both its axes from zero and
  divides by 4096; the column holds the row values, and a sum over the indices of a column is the sum over its rows,
  so the result is the loss of the three arguments. The run: every execution ends with the result at the loss and
  the arguments unchanged.
-/
import proofs.«123200_j55439437857546_2_alg».proof.Proof.KernelArray
import Idealize.ShloMosaic.Lib.Pipeline.FrameSuffix
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Arr Cert.MaskedLoss

variable (m : (ℓ : Loc nD τ sig) → Buf (Elt Ideal) ℓ) (ρ : Dev nD → PrngReg)

/-- The host's mean of a column: the sum of its 4096 entries, from zero, over 4096. -/
theorem mean_col (X : S4096x1.Idx → EReal) (i : S_.Idx) :
    Host.divf (Host.reduceAdd (F := Ideal) (φ := .f32) X (constant S_ .f32 0x00000000#32) reducesTo_S4096x1_S_d0_1 h_S_)
        (constant S_ .f32 0x45800000#32) i
      = Ideal.div (∑ r : Fin 4096, X (ix2 r (0 : Fin 1))) (Ideal.ofBits .f32 0x45800000#32) := by
  show Ideal.div (Host.reduceAdd (F := Ideal) (φ := .f32) X (constant S_ .f32 0x00000000#32) reducesTo_S4096x1_S_d0_1 h_S_ i)
      (Ideal.ofBits .f32 0x45800000#32) = _
  refine congrArg₂ Ideal.div ?_ rfl
  simp only [Host.reduceAdd, Ideal.hostReduceAdd_def]
  rw [Ideal.hostReduceAdd_total reducesTo_S4096x1_S_d0_1 (fun b => b.elim0), sum_col]
  show Ideal.ofBits .f32 0x00000000#32 + _ = _
  rw [Ideal.ofBits_zero_f32, zero_add]

/-- The program's result after the host's tail is the loss of the arguments as launched. -/
theorem tail_eq (c : Dev nD) :
    Pipeline.afterTail₀ cfgs (dats m) 0 (V0 m) [hostOps1] c main_v3
      = fun _ => loss (m ((c : Thread nD τ).loc main_arg0)) (m ((c : Thread nD τ).loc main_arg1))
          (fun r => (m ((c : Thread nD τ).loc main_arg2) : S4096.Idx → BitVec 32) (ix1 r)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1) = col m c
    from (Pipeline.withArrays_arr spec0 launch0.win.arr_inj c _ _ 3).trans (final m c), col_eq]
  funext i
  rw [mean_col]
  rfl

/-- Every execution of the program ends with its result at the loss and its arguments unchanged. -/
theorem run : θ_run defs (onTc (τ := τ) (main (F := Ideal))) ⟨m, fun _ => 0, ρ⟩ fun r => ∀ c : Dev nD,
      r.2.mem ((c : Thread nD τ).loc main_v3)
        = (fun _ => loss (m ((c : Thread nD τ).loc main_arg0)) (m ((c : Thread nD τ).loc main_arg1))
            (fun r => (m ((c : Thread nD τ).loc main_arg2) : S4096.Idx → BitVec 32) (ix1 r)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v3 (Pipeline.mem_restRefs_of main_v3 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Run

end
-- ==== Proof.ReferenceLoss.lean ====
/-
  The reference's result, read one operation at a time at the ideal values, is the loss. Its mask compares a row of
  positions 0 … 2047, broadcast down the rows, with the column of lengths broadcast along the rows; the selected
  differences are squared and summed along each row from zero, each row sum is divided by the row's length, and the
  row values are summed from zero and divided by 4096.
-/
import proofs.«123200_j55439437857546_2_alg».proof.Proof.Gen.ReferenceIdeal.Read
import proofs.«123200_j55439437857546_2_alg».proof.Proof.MaskedLoss
import Idealize.ShloMosaic.Lib.ValueIdx
import Idealize.ShloMosaic.PureOps.Ideal.Laws

noncomputable section

namespace Cert.ReferenceIdeal.Loss

open Idealize.ShloMosaic Idealize.ShloMosaic.ValueIdx Cert.ReferenceIdeal Cert.ReferenceIdeal.Read Cert.MaskedLoss

/-- The length read at (r, k) through the two broadcasts is the length of row r. -/
theorem idx_len (r : Fin 4096) (k : Fin 2048) : idx_main_v2 (idx_main_v4 (ix2 r k)) = ix1 r :=
  funext fun a => Fin.ext (by match a with | ⟨0, _⟩ => rfl)

/-- Position k of the row sum at r reads the array at (r, k). -/
theorem idx_row (r : Fin 4096) (k : Fin 2048) : idx_main_v10 (ix1 r) k = ix2 r k :=
  funext fun a => Fin.ext (by match a with | ⟨0, _⟩ => rfl | ⟨1, _⟩ => rfl)

/-- The selected value at (r, k) is the masked difference. -/
theorem masked_apply (x0 x1 : (⟨S4096x2048, .f32⟩ : BufTy).Contents (Elt Ideal)) (x2 : (⟨S4096, .i32⟩ : BufTy).Contents (Elt Ideal))
    (r : Fin 4096) (k : Fin 2048) :
    val_main_v8 (F := Ideal) x0 x1 x2 (ix2 r k) = diff (x0 (ix2 r k)) (x1 (ix2 r k)) (x2 (ix1 r)) k := by
  rw [val_main_v8_apply, val_main_v5_apply, val_main_v3_apply, val_main_v1_apply, val_main_v0_apply, val_main_v4_apply,
    val_main_v2_apply, val_main_v7_apply, val_main_v6_apply, val_main_call0_v1_apply, val_main_call0_v0_apply,
    val_main_cst_apply, idx_len]
  rfl

/-- The divided row sum at r is the row's value. -/
theorem row_apply (x0 x1 : (⟨S4096x2048, .f32⟩ : BufTy).Contents (Elt Ideal)) (x2 : (⟨S4096, .i32⟩ : BufTy).Contents (Elt Ideal))
    (r : Fin 4096) :
    val_main_v12 (F := Ideal) x0 x1 x2 (ix1 r) = rowMse x0 x1 (fun r => x2 (ix1 r)) r := by
  rw [val_main_v12_apply, val_main_v10_apply, val_main_v11_apply, val_main_cst_0_apply]
  unfold rowMse rowSq
  show Ideal.div (Ideal.ofBits .f32 0x00000000#32 + _) _ = _
  rw [Ideal.ofBits_zero_f32, zero_add]
  refine congrArg₂ Ideal.div (Finset.sum_congr rfl fun k _ => ?_) rfl
  rw [idx_row, val_main_v9_apply, masked_apply]
  rfl

/-- The reference's result is the loss of its three arguments. -/
theorem loss_eq (x0 x1 : (⟨S4096x2048, .f32⟩ : BufTy).Contents (Elt Ideal)) (x2 : (⟨S4096, .i32⟩ : BufTy).Contents (Elt Ideal)) :
    val_main_v14 (F := Ideal) x0 x1 x2 = fun _ => loss x0 x1 (fun r => x2 (ix1 r)) := by
  funext i
  rw [val_main_v14_apply, val_main_v13_apply, val_main_cst_1_apply, val_main_cst_2_apply]
  unfold loss
  show Ideal.div (Ideal.ofBits .f32 0x00000000#32 + _) (Ideal.ofBits .f32 0x45800000#32) = _
  rw [Ideal.ofBits_zero_f32, zero_add, sum_vec]
  exact congrArg₂ Ideal.div (Finset.sum_congr rfl fun r _ => row_apply x0 x1 x2 r) rfl

end Cert.ReferenceIdeal.Loss

end
-- ==== Proof.Claims.lean ====
/-
  The five claims. The kernel program and its idealization run and keep their arguments (their frames); the reference
  does likewise (its run, the result dropped); the idealization rewrote nothing. At the ideal values the kernel
  program ends with its result at the loss of its arguments — per row, the sum of the squared masked differences over
  the row's length; then the mean over the rows — and the reference's result, read operation by operation, is the
  same loss of the same arguments: the kernel's lane sum and the host's row sum are one sum, the sum over a [4096, 1]
  column and over a [4096] vector one sum over the rows, and the logarithm and the quotient one function each on
  both sides.
-/
import proofs.«123200_j55439437857546_2_alg».proof.Defs
import proofs.«123200_j55439437857546_2_alg».proof.Proof.Gen.Kernel
import proofs.«123200_j55439437857546_2_alg».proof.Proof.Gen.Kernel.Frame
import proofs.«123200_j55439437857546_2_alg».proof.Proof.Gen.KernelIdeal
import proofs.«123200_j55439437857546_2_alg».proof.Proof.Gen.KernelIdeal.Frame
import proofs.«123200_j55439437857546_2_alg».proof.Proof.Gen.ReferenceIdeal
import proofs.«123200_j55439437857546_2_alg».proof.Proof.Gen.Pre_finite_inputs
import proofs.«123200_j55439437857546_2_alg».proof.Proof.Gen.ReferenceIdeal.Run
import proofs.«123200_j55439437857546_2_alg».proof.Proof.Gen.ReferenceIdeal.Read
import proofs.«123200_j55439437857546_2_alg».proof.Proof.KernelRun
import proofs.«123200_j55439437857546_2_alg».proof.Proof.ReferenceLoss

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the loss of the (agreeing) arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Loss.loss_eq, (hagree c).1, (hagree c).2.1, (hagree c).2.2]
  rfl

end Cert.Proof.Claims

end
-- ==== Proof.lean ====
/-
  The certificate's claim. A masked mean-squared-error loss: for each of 4096 rows, the squared differences between P
  and log A over the row's first L r positions are summed and divided by L r, and the 4096 row values are averaged.
  The kernel computes the row values in blocks of 512 rows and the host averages them; the reference does all of it on
  the host. Proof/MaskedLoss.lean states the loss; Proof/KernelRow.lean, Proof/KernelArray.lean and Proof/KernelRun.lean
  read the kernel program's result as that loss; Proof/ReferenceLoss.lean reads the reference's; Proof/Claims.lean
  joins them. The witnesses of the programs' stated facts are the generated instances.
-/
import proofs.«123200_j55439437857546_2_alg».proof.Defs
import proofs.«123200_j55439437857546_2_alg».proof.Proof.Gen.Kernel
import proofs.«123200_j55439437857546_2_alg».proof.Proof.Gen.KernelIdeal
import proofs.«123200_j55439437857546_2_alg».proof.Proof.Gen.ReferenceIdeal
import proofs.«123200_j55439437857546_2_alg».proof.Proof.Gen.Pre_finite_inputs
import proofs.«123200_j55439437857546_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
